-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x10000 .f32) (main_arg1 : FVec F S10000x128 .f32) (main_arg2 : FVec F S128x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x128 : Shape := ⟨2, ![128, 128]⟩
abbrev S2000x128 : Shape := ⟨2, ![2000, 128]⟩
abbrev S400x10000 : Shape := ⟨2, ![400, 10000]⟩
abbrev S400x128 : Shape := ⟨2, ![400, 128]⟩

abbrev nBuf : Space → Nat
  | .hbm => 5
  | .vmem => 10
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .bf16⟩
  | .hbm, ⟨4, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S400x10000, .f32⟩
  | .local _ .vmem, ⟨6, _⟩ => ⟨S400x10000, .f32⟩
  | .local _ .vmem, ⟨7, _⟩ => ⟨S10000x128, .bf16⟩
  | .local _ .vmem, ⟨8, _⟩ => ⟨S400x128, .f32⟩
  | .local _ .vmem, ⟨9, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  dot_S2000x128_S128x128_S2000x128_1_0_0_1_n_n_wf : DotDims.WF S2000x128 S128x128 S2000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .bf16 = 32 ∨ (Rect.block (s := S10000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The idealized kernel's run with its result array named.

  The program is two launches in a row. The first leaves, in an intermediate array, what its five grid points wrote
  back; the second reads that array and the adjacency matrix and leaves, in the result array, what its twenty-five
  grid points wrote back. Every weakly fair execution terminates, and at the end the result array is the fold of the
  second launch's write-backs over the contents the second launch was entered with, while the three argument arrays
  are as launched.
-/
import proofs.«161993_g71494025610102_cont_9to1c4b_267_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents at the end of the second launch, read at the result array: the fold of that launch's write-backs. -/
theorem result_at_exit (c : Dev nD) :
    W2 m ρ c (Proc.devRef .tc main_v1) = (dat1 (V1 m ρ) c).arrAt 2 cfg1.N :=
  W2_arr m ρ c 2

/-- The second launch is entered with the adjacency matrix as launched … -/
theorem adj_at_entry (c : Dev nD) : V1 m ρ c main_arg0 = m ((c : Thread nD τ).loc main_arg0) :=
  (W1_of_ne m ρ c main_arg0 (by decide)).trans rfl

/-- … and with the intermediate array at the fold of the first launch's write-backs. -/
theorem support_at_entry (c : Dev nD) : V1 m ρ c main_v0 = (dat0 (V0 m ρ) c).arrAt 2 cfg0.N :=
  W1_arr m ρ c 2

/-- The first launch is entered with the features and the weights as launched. -/
theorem feat_at_launch (c : Dev nD) : V0 m ρ c main_arg1 = m ((c : Thread nD τ).loc main_arg1) := rfl
theorem weight_at_launch (c : Dev nD) : V0 m ρ c main_arg2 = m ((c : Thread nD τ).loc main_arg2) := rfl

set_option backward.isDefEq.respectTransparency.types false in
/-- Every weakly fair execution of the program terminates, nothing faulting, with the result array at the fold of
    the second launch's write-backs and the argument arrays as launched. -/
theorem run : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_at_exit m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Named

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.Bodies.lean ====
/-
  The two kernel bodies as arithmetic, over the extended reals.

  The first body multiplies a tile of 2000 feature rows by the whole weight matrix and narrows the product to a
  shorter float format; over the extended reals a change of format is the identity, so its entry `(r, q)` is the
  sum over the 128 feature positions `j` of `x (r, j) · w (j, q)`. The second body narrows a tile of 400 adjacency
  rows, multiplies it by the whole support matrix and clamps at zero: its entry `(r, q)` is the larger of zero and
  the sum over the 10000 nodes `k` of `a (r, k) · s (k, q)`.
-/
import proofs.«161993_g71494025610102_cont_9to1c4b_267_2_alg».proof.Proof.Gen.KernelIdeal.Skeleton
import proofs.«161993_g71494025610102_cont_9to1c4b_267_2_alg».proof.Proof.LibMatmul
import Idealize.ShloMosaic.Lib.Pipeline.Value
import Idealize.ShloMosaic.Lib.ValueIdx

noncomputable section

open scoped BigOperators

namespace Cert.KernelIdeal.Bodies

open Cert.KernelIdeal Cert.KernelIdeal.Gen Idealize.ShloMosaic Idealize.ShloMosaic.ValueIdx

/-- The first body's product is rows times columns, one contracted axis, no batch axis. -/
theorem plain_support : PlainMatmul.IsPlain (M := 2000) (K := 128) (N := 128) dot_S2000x128_S128x128_S2000x128_1_0_0_1_n_n :=
  ⟨rfl, rfl, rfl, rfl, rfl, rfl⟩

/-- So is the second body's. -/
theorem plain_spmm : PlainMatmul.IsPlain (M := 400) (K := 10000) (N := 128) dot_S400x10000_S10000x128_S400x128_1_0_0_1_n_n :=
  ⟨rfl, rfl, rfl, rfl, rfl, rfl⟩

/-- The first body at `(r, q)`: the row `r` of the feature tile against the column `q` of the weights. -/
theorem support_body (x0 : FVec Ideal S2000x128 .f32) (x1 : FVec Ideal S128x128 .f32) (r : Fin 2000) (q : Fin 128) :
    k0_pay1 (F := Ideal) x0 x1 (ix2 r q) = ∑ j : Fin 128, (x0 (ix2 r j) : EReal) * (x1 (ix2 j q) : EReal) := by
  unfold k0_pay1
  exact PlainMatmul.apply plain_support (some .fp32) x0 x1 r q

/-- The second body at `(r, q)`: the row `r` of the adjacency tile against the column `q` of the support, clamped at
    zero. -/
theorem spmm_body (x0 : FVec Ideal S400x10000 .f32) (x1 : FVec Ideal S10000x128 .bf16) (r : Fin 400) (q : Fin 128) :
    k1_pay1 (F := Ideal) x0 x1 (ix2 r q)
      = max (∑ k : Fin 10000, (x0 (ix2 r k) : EReal) * (x1 (ix2 k q) : EReal)) (Ideal.ofBits .f32 0x00000000#32) := by
  unfold k1_pay1
  rw [shapeCast_self]
  refine congrArg (fun z : EReal => max z (Ideal.ofBits .f32 0x00000000#32)) ?_
  exact PlainMatmul.apply plain_spmm none (truncf .bf16 x0 bitsLt_bf16_f32) x1 r q

end Cert.KernelIdeal.Bodies

end
-- ==== Proof.Spec.lean ====
/-
  The graph convolution as one function of its three arguments.

  With adjacency `A` (10000 × 10000), features `X` (10000 × 128) and weights `W` (128 × 128), the layer is
  `max (A · (X · W)) 0`: first the support `S = X · W`, entry `(r, q)` the sum over the 128 feature positions `j`
  of `X (r, j) · W (j, q)`; then entry `(p, q)` of the result, the larger of zero and the sum over the 10000 nodes
  `k` of `A (p, k) · S (k, q)`. The grouping is the same on both sides of the certificate — the support is summed
  first, then the neighbourhood — so the statement needs no law of the extended reals beyond the definition of a sum.
-/
import Idealize.ShloMosaic.PureOps.Ideal
import Idealize.ShloMosaic.Lib.ValueIdx

noncomputable section

open scoped BigOperators
open Idealize.ShloMosaic Idealize.ShloMosaic.ValueIdx

namespace GraphConv

/-- The support `X · W` at row `r`, column `q`. -/
def supportAt (x : (⟨2, ![10000, 128]⟩ : Shape).Idx → EReal) (w : (⟨2, ![128, 128]⟩ : Shape).Idx → EReal)
    (r : Fin 10000) (q : Fin 128) : EReal :=
  ∑ j : Fin 128, x (ix2 r j) * w (ix2 j q)

/-- The support as an array. -/
def support (x : (⟨2, ![10000, 128]⟩ : Shape).Idx → EReal) (w : (⟨2, ![128, 128]⟩ : Shape).Idx → EReal) :
    (⟨2, ![10000, 128]⟩ : Shape).Idx → EReal :=
  fun i => supportAt x w (i 0) (i 1)

theorem support_ix2 (x : (⟨2, ![10000, 128]⟩ : Shape).Idx → EReal) (w : (⟨2, ![128, 128]⟩ : Shape).Idx → EReal)
    (r : Fin 10000) (q : Fin 128) : support x w (ix2 r q) = supportAt x w r q := rfl

/-- A neighbourhood sum clamped at zero: entry `(p, q)` of `max (A · S) 0` for any matrix `S` of node rows. The zero is
    kept as the float word's value, the same word on both sides. -/
def aggregateAt (adj : (⟨2, ![10000, 10000]⟩ : Shape).Idx → EReal) (s : (⟨2, ![10000, 128]⟩ : Shape).Idx → EReal)
    (p : Fin 10000) (q : Fin 128) : EReal :=
  max (∑ k : Fin 10000, adj (ix2 p k) * s (ix2 k q)) (Ideal.ofBits .f32 0x00000000#32)

/-- The clamped neighbourhood sums as an array. -/
def aggregate (adj : (⟨2, ![10000, 10000]⟩ : Shape).Idx → EReal) (s : (⟨2, ![10000, 128]⟩ : Shape).Idx → EReal) :
    (⟨2, ![10000, 128]⟩ : Shape).Idx → EReal :=
  fun i => aggregateAt adj s (i 0) (i 1)

theorem aggregate_ix2 (adj : (⟨2, ![10000, 10000]⟩ : Shape).Idx → EReal) (s : (⟨2, ![10000, 128]⟩ : Shape).Idx → EReal)
    (p : Fin 10000) (q : Fin 128) : aggregate adj s (ix2 p q) = aggregateAt adj s p q := rfl

/-- The layer: `max (A · (X · W)) 0`. -/
def layer (adj : (⟨2, ![10000, 10000]⟩ : Shape).Idx → EReal) (x : (⟨2, ![10000, 128]⟩ : Shape).Idx → EReal)
    (w : (⟨2, ![128, 128]⟩ : Shape).Idx → EReal) : (⟨2, ![10000, 128]⟩ : Shape).Idx → EReal :=
  aggregate adj (support x w)

end GraphConv

end
-- ==== Proof.SupportArray.lean ====
/-
  What the first launch leaves in the intermediate array: the support `X · W`.

  The launch runs over five grid points. Point `t` reads rows `2000 t … 2000 t + 1999` of the features and the whole
  weight matrix, and writes back rows `2000 t … 2000 t + 1999` of the intermediate array: entry `(r, q)` of its tile
  is `∑ j, X (2000 t + r, j) · W (j, q)`, which is the support at row `2000 t + r`. Row `i` of the array lies in the
  tile of point `i / 2000`, so the five tiles cover the array and it ends holding the support of the contents the
  launch was entered with.
-/
import proofs.«161993_g71494025610102_cont_9to1c4b_267_2_alg».proof.Proof.Gen.KernelIdeal.Frame
import proofs.«161993_g71494025610102_cont_9to1c4b_267_2_alg».proof.Proof.Bodies
import proofs.«161993_g71494025610102_cont_9to1c4b_267_2_alg».proof.Proof.Spec
import Idealize.ShloMosaic.Lib.Pipeline.Value

noncomputable section

open scoped BigOperators

namespace Cert.KernelIdeal.SupportArray

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- The block indices at point `t`, decided over the five points: the feature tile and the output tile are the
    `t`-th along the rows, the weight matrix is one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A tile of the body's product is a tile of the support: if the feature tile holds rows `2000 b …` of `X` and the
    weight tile is `W`, entry `(r, q)` is the support at `(2000 b + r, q)`. -/
theorem tile_eq (X : S10000x128.Idx → EReal) (Wt : S128x128.Idx → EReal) (b : ℕ) (hb : b < 5)
    (x0 : FVec Ideal S2000x128 .f32) (x1 : FVec Ideal S128x128 .f32)
    (h0 : ∀ (r : Fin 2000) (j : Fin 128), x0 (ix2 r j) = X (ix2 (⟨b * 2000 + r.val, by omega⟩ : Fin 10000) j))
    (h1 : ∀ (j q : Fin 128), x1 (ix2 j q) = Wt (ix2 j q))
    (r : Fin 2000) (q : Fin 128) :
    k0_pay1 (F := Ideal) x0 x1 (ix2 r q) = GraphConv.support X Wt (ix2 (⟨b * 2000 + r.val, by omega⟩ : Fin 10000) q) := by
  rw [Bodies.support_body, GraphConv.support_ix2]
  unfold GraphConv.supportAt
  exact Finset.sum_congr rfl fun j _ => by rw [h0, h1]

/-- What point `t` writes back is tile `t` of the support of the entry contents. -/
theorem flushed_eq (c : Dev nD) (t : Fin cfg0.N) :
    (dat0 V c).flushed 2 t
      = ((cfg0.win 2).blk t).view.read (Elt Ideal) (GraphConv.support (V c main_arg1) (V c main_arg2)) := by
  show (cfg0.win 2).cut (grid0.coords t) ((dat0 V c).after 2 t) = _
  rw [after0_2]
  unfold out0_2
  rw [View.canon_unit_zero zero_offset]
  simp only [View.ld_unit_zero (S := S2000x128) zero_offset, View.ld_unit_zero (S := S128x128) zero_offset]
  obtain ⟨e0, e1, e2, e3, e4, e5⟩ := index_facts t
  have hb : t.val < 5 := N_0 ▸ t.isLt
  funext j
  have hj0 : (j 0).val < 2000 := (j 0).isLt
  have hj1 : (j 1).val < 128 := (j 1).isLt
  show k0_pay1 (F := Ideal) (iblk0 V c 0 t) (iblk0 V c 1 t) j
    = GraphConv.support (V c main_arg1) (V c main_arg2) (((cfg0.win 2).blk t).view.emb j)
  have hjj : j = ix2 (⟨(j 0).val, hj0⟩ : Fin 2000) (⟨(j 1).val, hj1⟩ : Fin 128) :=
    funext fun a => by match a with | ⟨0, _⟩ => rfl | ⟨1, _⟩ => rfl
  refine (congrArg (k0_pay1 (F := Ideal) (iblk0 V c 0 t) (iblk0 V c 1 t)) hjj).trans ?_
  refine (tile_eq (V c main_arg1) (V c main_arg2) t.val hb (iblk0 V c 0 t) (iblk0 V c 1 t) ?_ ?_
    ⟨(j 0).val, hj0⟩ ⟨(j 1).val, hj1⟩).trans ?_
  · intro r k
    show V c main_arg1 (((cfg0.win 0).blk t).view.emb (ix2 r k)) = _
    refine congrArg _ ?_
    funext a; apply Fin.ext
    match a with
    | ⟨0, _⟩ => show win0_0.index t (0 : Fin 2) * 2000 + 1 * r.val = t.val * 2000 + r.val; omega
    | ⟨1, _⟩ => show win0_0.index t (1 : Fin 2) * 128 + 1 * k.val = k.val; omega
  · intro k q
    show V c main_arg2 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · refine congrArg (GraphConv.support (V c main_arg1) (V c main_arg2)) ?_
    funext a; apply Fin.ext
    match a with
    | ⟨0, _⟩ => show t.val * 2000 + (j 0).val = win0_2.index t (0 : Fin 2) * 2000 + 1 * (j 0).val; omega
    | ⟨1, _⟩ => show (j 1).val = win0_2.index t (1 : Fin 2) * 128 + 1 * (j 1).val; omega

/-- An index of the array is in point `t`'s tile iff each coordinate is in the tile's range on its axis. -/
theorem mem_tile (t : Fin cfg0.N) (i : S10000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Every index of the array is in the tile of the point its row names. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ : ∃ t : Fin cfg0.N, t.val = (i 0).val / 2000 :=
    ⟨⟨(i 0).val / 2000, by rw [show cfg0.N = 5 from N_0]; omega⟩, rfl⟩
  obtain ⟨-, -, -, -, e4, e5⟩ := index_facts t
  refine ⟨t, flush0_2 t, ?_⟩
  rw [mem_tile]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The intermediate array after the first launch is the support of the features and weights it was entered with. -/
theorem final (c : Dev nD) :
    (dat0 V c).arrAt 2 cfg0.N = GraphConv.support (V c main_arg1) (V c main_arg2) :=
  (dat0 V c).arrAt_eq_of_cover 2 (GraphConv.support (V c main_arg1) (V c main_arg2))
    (fun t _ => flushed_eq V c t) cover

end Cert.KernelIdeal.SupportArray

end
-- ==== Proof.SpmmArray.lean ====
/-
  What the second launch leaves in the result array: the clamped neighbourhood sums.

  The launch runs over twenty-five grid points. Point `t` reads rows `400 t … 400 t + 399` of the adjacency matrix
  and the whole intermediate array `S`, and writes back rows `400 t … 400 t + 399` of the result: entry `(r, q)` of
  its tile is `max (∑ k, A (400 t + r, k) · S (k, q)) 0`. Row `i` of the result lies in the tile of point `i / 400`, so
  the tiles cover the array and it ends holding `max (A · S) 0` of the contents the launch was entered with.
-/
import proofs.«161993_g71494025610102_cont_9to1c4b_267_2_alg».proof.Proof.Gen.KernelIdeal.Frame
import proofs.«161993_g71494025610102_cont_9to1c4b_267_2_alg».proof.Proof.Bodies
import proofs.«161993_g71494025610102_cont_9to1c4b_267_2_alg».proof.Proof.Spec
import Idealize.ShloMosaic.Lib.Pipeline.Value

noncomputable section

open scoped BigOperators

namespace Cert.KernelIdeal.SpmmArray

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- The block indices at point `t`, decided over the twenty-five points: the adjacency tile and the output tile are
    the `t`-th along the rows, the intermediate array is one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A tile of the body's result is a tile of the clamped neighbourhood sums: if the adjacency tile holds rows
    `400 b …` of `A` and the other operand is `S`, entry `(r, q)` is the clamped sum at `(400 b + r, q)`. -/
theorem tile_eq (A : S10000x10000.Idx → EReal) (S : S10000x128.Idx → EReal) (b : ℕ) (hb : b < 25)
    (x0 : FVec Ideal S400x10000 .f32) (x1 : FVec Ideal S10000x128 .bf16)
    (h0 : ∀ (r : Fin 400) (k : Fin 10000), x0 (ix2 r k) = A (ix2 (⟨b * 400 + r.val, by omega⟩ : Fin 10000) k))
    (h1 : ∀ (k : Fin 10000) (q : Fin 128), x1 (ix2 k q) = S (ix2 k q))
    (r : Fin 400) (q : Fin 128) :
    k1_pay1 (F := Ideal) x0 x1 (ix2 r q) = GraphConv.aggregate A S (ix2 (⟨b * 400 + r.val, by omega⟩ : Fin 10000) q) := by
  rw [Bodies.spmm_body, GraphConv.aggregate_ix2]
  unfold GraphConv.aggregateAt
  refine congrArg (fun z : EReal => max z (Ideal.ofBits .f32 0x00000000#32)) ?_
  exact Finset.sum_congr rfl fun k _ => by rw [h0, h1]

/-- What point `t` writes back is tile `t` of the clamped neighbourhood sums of the entry contents. -/
theorem flushed_eq (c : Dev nD) (t : Fin cfg1.N) :
    (dat1 V c).flushed 2 t
      = ((cfg1.win 2).blk t).view.read (Elt Ideal) (GraphConv.aggregate (V c main_arg0) (V c main_v0)) := by
  show (cfg1.win 2).cut (grid1.coords t) ((dat1 V c).after 2 t) = _
  rw [after1_2]
  unfold out1_2
  rw [View.canon_unit_zero zero_offset]
  simp only [View.ld_unit_zero (S := S400x10000) zero_offset, View.ld_unit_zero (S := S10000x128) zero_offset]
  obtain ⟨e0, e1, e2, e3, e4, e5⟩ := index_facts t
  have hb : t.val < 25 := N_1 ▸ t.isLt
  funext j
  have hj0 : (j 0).val < 400 := (j 0).isLt
  have hj1 : (j 1).val < 128 := (j 1).isLt
  show k1_pay1 (F := Ideal) (iblk1 V c 0 t) (iblk1 V c 1 t) j
    = GraphConv.aggregate (V c main_arg0) (V c main_v0) (((cfg1.win 2).blk t).view.emb j)
  have hjj : j = ix2 (⟨(j 0).val, hj0⟩ : Fin 400) (⟨(j 1).val, hj1⟩ : Fin 128) :=
    funext fun a => by match a with | ⟨0, _⟩ => rfl | ⟨1, _⟩ => rfl
  refine (congrArg (k1_pay1 (F := Ideal) (iblk1 V c 0 t) (iblk1 V c 1 t)) hjj).trans ?_
  refine (tile_eq (V c main_arg0) (V c main_v0) t.val hb (iblk1 V c 0 t) (iblk1 V c 1 t) ?_ ?_
    ⟨(j 0).val, hj0⟩ ⟨(j 1).val, hj1⟩).trans ?_
  · intro r k
    show V c main_arg0 (((cfg1.win 0).blk t).view.emb (ix2 r k)) = _
    refine congrArg _ ?_
    funext a; apply Fin.ext
    match a with
    | ⟨0, _⟩ => show win1_0.index t (0 : Fin 2) * 400 + 1 * r.val = t.val * 400 + r.val; omega
    | ⟨1, _⟩ => show win1_0.index t (1 : Fin 2) * 10000 + 1 * k.val = k.val; omega
  · intro k q
    show V c main_v0 (((cfg1.win 1).blk t).view.emb (ix2 k q)) = _
    refine congrArg _ ?_
    funext a; apply Fin.ext
    match a with
    | ⟨0, _⟩ => show win1_1.index t (0 : Fin 2) * 10000 + 1 * k.val = k.val; omega
    | ⟨1, _⟩ => show win1_1.index t (1 : Fin 2) * 128 + 1 * q.val = q.val; omega
  · refine congrArg (GraphConv.aggregate (V c main_arg0) (V c main_v0)) ?_
    funext a; apply Fin.ext
    match a with
    | ⟨0, _⟩ => show t.val * 400 + (j 0).val = win1_2.index t (0 : Fin 2) * 400 + 1 * (j 0).val; omega
    | ⟨1, _⟩ => show (j 1).val = win1_2.index t (1 : Fin 2) * 128 + 1 * (j 1).val; omega

/-- An index of the array is in point `t`'s tile iff each coordinate is in the tile's range on its axis. -/
theorem mem_tile (t : Fin cfg1.N) (i : S10000x128.Idx) :
    i ∈ ((cfg1.win 2).blk t).view.set ↔ ∀ a : Fin 2, win1_2.index t a * S400x128.size a ≤ (i a).val
      ∧ (i a).val < win1_2.index t a * S400x128.size a + S400x128.size a := by
  show i ∈ ((View.whole main_v1).slice (win1_2.rect t)).set ↔ _
  rw [View.set_slice_whole, Rect.mem_set_unit]
  exact Iff.rfl

/-- Every index of the array is in the tile of the point its row names. -/
theorem cover (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, by rw [show cfg1.N = 25 from N_1]; omega⟩, rfl⟩
  obtain ⟨-, -, -, -, e4, e5⟩ := index_facts t
  refine ⟨t, flush1_2 t, ?_⟩
  rw [mem_tile]
  intro a
  match a with
  | ⟨0, _⟩ =>
    show win1_2.index t (0 : Fin 2) * 400 ≤ (i 0).val ∧ (i 0).val < win1_2.index t (0 : Fin 2) * 400 + 400
    omega
  | ⟨1, _⟩ =>
    show win1_2.index t (1 : Fin 2) * 128 ≤ (i 1).val ∧ (i 1).val < win1_2.index t (1 : Fin 2) * 128 + 128
    omega

/-- The result array after the second launch is `max (A · S) 0` of the adjacency matrix and the intermediate array it
    was entered with. -/
theorem final (c : Dev nD) :
    (dat1 V c).arrAt 2 cfg1.N = GraphConv.aggregate (V c main_arg0) (V c main_v0) :=
  (dat1 V c).arrAt_eq_of_cover 2 (GraphConv.aggregate (V c main_arg0) (V c main_v0))
    (fun t _ => flushed_eq V c t) cover

end Cert.KernelIdeal.SpmmArray

end
-- ==== Proof.KernelValue.lean ====
/-
  The idealized kernel computes the layer.

  The second launch leaves `max (A · S) 0` of the adjacency matrix and of the intermediate array `S` it finds; it finds
  the adjacency matrix as launched, and `S` as the first launch left it, which is the support `X · W` of the features
  and weights as launched. So the result array ends at `max (A · (X · W)) 0` of the three arguments.
-/
import proofs.«161993_g71494025610102_cont_9to1c4b_267_2_alg».proof.Proof.KernelRun
import proofs.«161993_g71494025610102_cont_9to1c4b_267_2_alg».proof.Proof.SupportArray
import proofs.«161993_g71494025610102_cont_9to1c4b_267_2_alg».proof.Proof.SpmmArray

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The fold of the second launch's write-backs is the layer of the launch contents. -/
theorem result_eq (c : Dev nD) :
    (dat1 (V1 m ρ) c).arrAt 2 cfg1.N
      = GraphConv.layer (m ((c.tc : Thread nD τ).loc main_arg0)) (m ((c.tc : Thread nD τ).loc main_arg1))
          (m ((c.tc : Thread nD τ).loc main_arg2)) :=
  calc (dat1 (V1 m ρ) c).arrAt 2 cfg1.N
      = GraphConv.aggregate (V1 m ρ c main_arg0) (V1 m ρ c main_v0) := SpmmArray.final (V1 m ρ) c
    _ = GraphConv.aggregate (m ((c.tc : Thread nD τ).loc main_arg0))
          (GraphConv.support (V0 m ρ c main_arg1) (V0 m ρ c main_arg2)) :=
        congrArg₂ GraphConv.aggregate (Named.adj_at_entry m ρ c)
          ((Named.support_at_entry m ρ c).trans (SupportArray.final (V0 m ρ) c))
    _ = GraphConv.aggregate (m ((c.tc : Thread nD τ).loc main_arg0))
          (GraphConv.support (m ((c.tc : Thread nD τ).loc main_arg1)) (m ((c.tc : Thread nD τ).loc main_arg2))) :=
        congrArg (GraphConv.aggregate _)
          (congrArg₂ GraphConv.support (Named.feat_at_launch m ρ c) (Named.weight_at_launch m ρ c))

/-- Every weakly fair execution of the idealized kernel terminates with the result array at the layer of the
    arguments and the arguments as launched. -/
theorem run : θ_run defs (onTc (τ := τ) (main (F := Ideal))) ⟨m, fun _ => 0, ρ⟩ (fun r => ∀ c : Dev nD,
      r.2.mem ((c.tc : Thread nD τ).loc main_v1)
        = GraphConv.layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Named.run m ρ)

end Cert.KernelIdeal.KernelValue

end
-- ==== Proof.RefValue.lean ====
/-
  The reference computes the layer.

  The reference program is three steps: the support `X · W` as one matrix product, the neighbourhood sums
  `A · S` as a second one, and a maximum with zero. Read at the entry `(p, q)`, each product is the plain sum over
  its contracted axis, so the result is `max (∑ k, A (p, k) · (∑ j, X (k, j) · W (j, q))) 0`: the layer.
-/
import proofs.«161993_g71494025610102_cont_9to1c4b_267_2_alg».proof.Proof.Gen.ReferenceIdeal.Read
import proofs.«161993_g71494025610102_cont_9to1c4b_267_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- In the first product the entry `(r, q)` reads the features at `(r, j)` … -/
theorem feat_index (r : Fin 10000) (q : Fin 128) (j : Fin 128) : lidx_main_v0 (ix2 r q) j = ix2 r j :=
  funext fun a => Fin.ext (by match a with | ⟨0, _⟩ => rfl | ⟨1, _⟩ => rfl)

/-- … and the weights at `(j, q)`. -/
theorem weight_index (r : Fin 10000) (q : Fin 128) (j : Fin 128) : ridx_main_v0 (ix2 r q) j = ix2 j q :=
  funext fun a => Fin.ext (by match a with | ⟨0, _⟩ => rfl | ⟨1, _⟩ => rfl)

/-- In the second product the entry `(p, q)` reads the adjacency at `(p, k)` … -/
theorem adj_index (p : Fin 10000) (q : Fin 128) (k : Fin 10000) : lidx_main_v1 (ix2 p q) k = ix2 p k :=
  funext fun a => Fin.ext (by match a with | ⟨0, _⟩ => rfl | ⟨1, _⟩ => rfl)

/-- … and the support at `(k, q)`. -/
theorem support_index (p : Fin 10000) (q : Fin 128) (k : Fin 10000) : ridx_main_v1 (ix2 p q) k = ix2 k q :=
  funext fun a => Fin.ext (by match a with | ⟨0, _⟩ => rfl | ⟨1, _⟩ => rfl)

/-- The reference's first product is the support. -/
theorem support_eq (x1 : (⟨S10000x128, .f32⟩ : BufTy).Contents (Elt Ideal)) (x2 : (⟨S128x128, .f32⟩ : BufTy).Contents (Elt Ideal)) :
    val_main_v0 (F := Ideal) x1 x2 = GraphConv.support x1 x2 := by
  funext i
  obtain ⟨r, q, rfl⟩ : ∃ (r : Fin 10000) (q : Fin 128), i = ix2 r q := ⟨i 0, i 1, eq_ix2 i⟩
  rw [val_main_v0_apply, GraphConv.support_ix2]
  unfold GraphConv.supportAt
  simp only [feat_index, weight_index]

/-- The reference's result is the layer of its arguments. -/
theorem layer_eq (x0 : (⟨S10000x10000, .f32⟩ : BufTy).Contents (Elt Ideal)) (x1 : (⟨S10000x128, .f32⟩ : BufTy).Contents (Elt Ideal))
    (x2 : (⟨S128x128, .f32⟩ : BufTy).Contents (Elt Ideal)) :
    val_main_v2 (F := Ideal) x0 x1 x2 = GraphConv.layer x0 x1 x2 := by
  funext i
  obtain ⟨p, q, rfl⟩ : ∃ (p : Fin 10000) (q : Fin 128), i = ix2 p q := ⟨i 0, i 1, eq_ix2 i⟩
  rw [val_main_v2_apply, val_main_v1_apply, val_main_call0_v0_apply, val_main_call0_cst_apply, support_eq]
  unfold GraphConv.layer
  rw [GraphConv.aggregate_ix2]
  unfold GraphConv.aggregateAt
  simp only [adj_index, support_index]
  rfl

end Cert.ReferenceIdeal.RefValue

end
-- ==== Proof.lean ====
/-
  The certificate of a graph-convolution layer: `max (A · (X · W)) 0` for a dense 10000 × 10000 adjacency `A`,
  10000 × 128 features `X` and 128 × 128 weights `W`.

  The kernel computes it in two launches — the support `S = X · W` in tiles of 2000 rows, narrowed to a shorter
  float format, then `max (A · S) 0` in tiles of 400 rows with the adjacency tile narrowed the same way — and the
  reference as two matrix products and a maximum. Over the extended reals a change of float format is the identity
  and a matrix product into zero is the plain sum over its contracted axis, so both programs end with entry
  `(p, q)` at `max (∑ k, A (p, k) · (∑ j, X (k, j) · W (j, q))) 0`, the sums grouped the same way on both sides: no
  finiteness of the inputs is used. The three programs' runs terminate with their arguments unchanged, and the
  idealized kernel is the kernel's own text read over the extended reals, so there is nothing to preserve.
-/
import proofs.«161993_g71494025610102_cont_9to1c4b_267_2_alg».proof.Defs
import proofs.«161993_g71494025610102_cont_9to1c4b_267_2_alg».proof.Proof.Gen.Kernel
import proofs.«161993_g71494025610102_cont_9to1c4b_267_2_alg».proof.Proof.Gen.Kernel.Skeleton
import proofs.«161993_g71494025610102_cont_9to1c4b_267_2_alg».proof.Proof.Gen.Kernel.Launch
import proofs.«161993_g71494025610102_cont_9to1c4b_267_2_alg».proof.Proof.Gen.Kernel.Points
import proofs.«161993_g71494025610102_cont_9to1c4b_267_2_alg».proof.Proof.Gen.Kernel.Frame
import proofs.«161993_g71494025610102_cont_9to1c4b_267_2_alg».proof.Proof.Gen.KernelIdeal
import proofs.«161993_g71494025610102_cont_9to1c4b_267_2_alg».proof.Proof.Gen.KernelIdeal.Skeleton
import proofs.«161993_g71494025610102_cont_9to1c4b_267_2_alg».proof.Proof.Gen.KernelIdeal.Launch
import proofs.«161993_g71494025610102_cont_9to1c4b_267_2_alg».proof.Proof.Gen.KernelIdeal.Points
import proofs.«161993_g71494025610102_cont_9to1c4b_267_2_alg».proof.Proof.Gen.KernelIdeal.Frame
import proofs.«161993_g71494025610102_cont_9to1c4b_267_2_alg».proof.Proof.Gen.ReferenceIdeal
import proofs.«161993_g71494025610102_cont_9to1c4b_267_2_alg».proof.Proof.Gen.Pre_finite_inputs
import proofs.«161993_g71494025610102_cont_9to1c4b_267_2_alg».proof.Proof.Gen.ReferenceIdeal.Run
import proofs.«161993_g71494025610102_cont_9to1c4b_267_2_alg».proof.Proof.Gen.ReferenceIdeal.Read
import proofs.«161993_g71494025610102_cont_9to1c4b_267_2_alg».proof.Proof.KernelValue
import proofs.«161993_g71494025610102_cont_9to1c4b_267_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates with its arguments unchanged. -/
theorem frame_kernel : @Cert.frame_Kernel Cert.Kernel.Gen.facts Cert.Pre_finite_inputs.Gen.facts :=
  fun m ρ _ => Cert.Kernel.Gen.frame m ρ

/-- So does the kernel read over the extended reals. -/
theorem frame_kernel_ideal : @Cert.frame_KernelIdeal Cert.KernelIdeal.Gen.facts Cert.Pre_finite_inputs.Gen.facts :=
  fun m ρ _ => Cert.KernelIdeal.Gen.frame m ρ

/-- So does the reference: its run, with the result dropped. -/
theorem frame_reference_ideal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the layer of the arguments they agree on. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => GraphConv.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.layer_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
